-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S3200000 : Shape := ⟨1, ![3200000]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S100000x64 .f32) (main_arg1 : IVec S2x3200000 32) (main_arg2 : FVec F S3200000 .f32) (main_arg3 : FVec F S64x16 .f32) (main_arg4 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S64x16 .f32 := Host.absf main_arg3
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S100000x64 : Shape := ⟨2, ![100000, 64]⟩
abbrev S2x3200000 : Shape := ⟨2, ![2, 3200000]⟩
abbrev S3200000 : Shape := ⟨1, ![3200000]⟩
abbrev S64x16 : Shape := ⟨2, ![64, 16]⟩
abbrev S16 : Shape := ⟨1, ![16]⟩
abbrev S100000x16 : Shape := ⟨2, ![100000, 16]⟩
abbrev S10000x64 : Shape := ⟨2, ![10000, 64]⟩
abbrev S10000x16 : Shape := ⟨2, ![10000, 16]⟩
abbrev S1x3200000 : Shape := ⟨2, ![1, 3200000]⟩
abbrev S_ : Shape := ⟨0, ![]⟩
abbrev S3200000x1 : Shape := ⟨2, ![3200000, 1]⟩
abbrev S3200000x16 : Shape := ⟨2, ![3200000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 28
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S3200000, .f32⟩
  | .hbm, ⟨3, _⟩ => ⟨S64x16, .f32⟩
  | .hbm, ⟨4, _⟩ => ⟨S16, .f32⟩
  | .hbm, ⟨5, _⟩ => ⟨S100000x16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x16, .f32⟩
  | .hbm, ⟨19, _⟩ => ⟨S3200000x1, .f32⟩
  | .hbm, ⟨20, _⟩ => ⟨S3200000x16, .f32⟩
  | .hbm, ⟨21, _⟩ => ⟨S3200000x16, .f32⟩
  | .hbm, ⟨22, _⟩ => ⟨S_, .f32⟩
  | .hbm, ⟨23, _⟩ => ⟨S100000x16, .f32⟩
  | .hbm, ⟨24, _⟩ => ⟨S3200000x1, .i32⟩
  | .hbm, ⟨25, _⟩ => ⟨S100000x16, .f32⟩
  | .hbm, ⟨26, _⟩ => ⟨S1x16, .f32⟩
  | .hbm, ⟨27, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S64x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  reduces_S10000x16_S10000 : S10000x16.Reduces [1] S10000
  shapeCasts_S10000_S10000x1 : S10000.ShapeCasts S10000x1
  broadcasts_S10000x1_S10000x16 : S10000x1.Broadcasts S10000x16
  dot_S10000x64_S64x16_S10000x16_1_0_0_1_n_n_wf : DotDims.WF S10000x64 S64x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)

variable [Facts₀]

def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S3200000 : Shape := ⟨1, ![3200000]⟩
abbrev S64x16 : Shape := ⟨2, ![64, 16]⟩
abbrev S16 : Shape := ⟨1, ![16]⟩
abbrev S100000x16 : Shape := ⟨2, ![100000, 16]⟩
abbrev S1x3200000 : Shape := ⟨2, ![1, 3200000]⟩
abbrev S_ : Shape := ⟨0, ![]⟩
abbrev S3200000x1 : Shape := ⟨2, ![3200000, 1]⟩
abbrev S3200000x16 : Shape := ⟨2, ![3200000, 16]⟩
abbrev S1x16 : Shape := ⟨2, ![1, 16]⟩
abbrev S100000 : Shape := ⟨1, ![100000]⟩
abbrev S100000x1 : Shape := ⟨2, ![100000, 1]⟩

abbrev nBuf : Space → Nat
  | .hbm => 47
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S3200000, .f32⟩
  | .hbm, ⟨3, _⟩ => ⟨S64x16, .f32⟩
  | .hbm, ⟨4, _⟩ => ⟨S16, .f32⟩
  | .hbm, ⟨5, _⟩ => ⟨S100000x16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x16, .f32⟩
  | .hbm, ⟨19, _⟩ => ⟨S3200000x1, .f32⟩
  | .hbm, ⟨20, _⟩ => ⟨S3200000x16, .f32⟩
  | .hbm, ⟨21, _⟩ => ⟨S3200000x16, .f32⟩
  | .hbm, ⟨22, _⟩ => ⟨S_, .f32⟩
  | .hbm, ⟨23, _⟩ => ⟨S100000x16, .f32⟩
  | .hbm, ⟨24, _⟩ => ⟨S3200000x1, .i32⟩
  | .hbm, ⟨25, _⟩ => ⟨S100000x16, .f32⟩
  | .hbm, ⟨26, _⟩ => ⟨S1x16, .f32⟩
  | .hbm, ⟨27, _⟩ => ⟨S100000x16, .f32⟩
  | .hbm, ⟨28, _⟩ => ⟨S100000x16, .f32⟩
  | .hbm, ⟨29, _⟩ => ⟨S_, .f32⟩
  | .hbm, ⟨30, _⟩ => ⟨S100000x16, .f32⟩
  | .hbm, ⟨31, _⟩ => ⟨S100000x16, .f32⟩
  | .hbm, ⟨32, _⟩ => ⟨S_, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x16, .f32⟩
  | .hbm, ⟨39, _⟩ => ⟨S100000x16, .f32⟩
  | .hbm, ⟨40, _⟩ => ⟨S100000x16, .f32⟩
  | .hbm, ⟨41, _⟩ => ⟨S_, .f32⟩
  | .hbm, ⟨42, _⟩ => ⟨S100000, .f32⟩
  | .hbm, ⟨43, _⟩ => ⟨S100000x1, .f32⟩
  | .hbm, ⟨44, _⟩ => ⟨S100000x1, .f32⟩
  | .hbm, ⟨45, _⟩ => ⟨S100000x16, .f32⟩
  | .hbm, ⟨46, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_cst : Ref sig .tc := ⟨.hbm, 29, rfl⟩
abbrev main_call0_v0 : Ref sig .tc := ⟨.hbm, 30, rfl⟩
abbrev main_v21 : Ref sig .tc := ⟨.hbm, 31, rfl⟩
abbrev main_call1_cst : Ref sig .tc := ⟨.hbm, 32, rfl⟩
abbrev main_call1_v0 : Ref sig .tc := ⟨.hbm, 33, rfl⟩
abbrev main_call1_cst_0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_cst_1 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_v22 : Ref sig .tc := ⟨.hbm, 46, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x64_S64x16_S100000x16_1_0_0_1_n_n_wf : DotDims.WF S100000x64 S64x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.LibMatmul.lean ====
/-
  A row-by-column matrix product into a zero accumulator, read at an index of the result: entry (r, c) of an
  M×K by K×N product is the sum over the contracted coordinate k of left (r, k) times right (k, c).
  Stated for any dimension numbers that contract the left operand's second axis with the right operand's
  first and have no batch axes, at the exact (extended-real) instance, where the product carries no rounding.
-/
import Idealize.ShloMosaic.Lib.ValueIdx
import Idealize.ShloMosaic.Lib.Pipeline.Value
import Idealize.ShloMosaic.PureOps.Ideal.Laws

noncomputable section

namespace Idealize.ShloMosaic.MatmulRead

open Idealize.ShloMosaic Idealize.ShloMosaic.ValueIdx
open scoped BigOperators

/-- Entry (r, c) of the product of an M×K block by a K×N block accumulated into zeros is
    `∑ k, left (r, k) * right (k, c)`. -/
theorem matmul_zero_apply {M K N : Nat} {φ₁ φ₂ : FTy}
    (lc : List (Fin 2)) (rc : List (Fin 2)) (ln : List (Fin 2)) (rn : List (Fin 2)) (lb rb : List (Fin 2))
    (h1 : lc = [1]) (h2 : rc = [0]) (h3 : ln = [0]) (h4 : rn = [1]) (h5 : lb = []) (h6 : rb = [])
    (wf : DotDims.WF ⟨2, ![M, K]⟩ ⟨2, ![K, N]⟩ ⟨2, ![M, N]⟩ lc rc ln rn lb rb)
    (prec : Option ContractPrecision)
    (lhs : FVec Ideal ⟨2, ![M, K]⟩ φ₁) (rhs : FVec Ideal ⟨2, ![K, N]⟩ φ₂) (j : (⟨2, ![M, N]⟩ : Shape).Idx) :
    FloatOps.matmul (⟨lc, rc, ln, rn, lb, rb, wf⟩ : DotDims ⟨2, ![M, K]⟩ ⟨2, ![K, N]⟩ ⟨2, ![M, N]⟩) prec lhs rhs
        (constant ⟨2, ![M, N]⟩ .f32 0x00000000#32) j
      = ∑ k : Fin K, lhs (ix2 (j 0) k) * rhs (ix2 k (j 1)) := by
  subst h1 h2 h3 h4 h5 h6
  set d : DotDims ⟨2, ![M, K]⟩ ⟨2, ![K, N]⟩ ⟨2, ![M, N]⟩ := ⟨[1], [0], [0], [1], [], [], wf⟩ with hd
  rw [Ideal.matmul_constant_zero_apply, ← Equiv.sum_comp (contrEquiv1 d K rfl rfl).symm]
  refine Finset.sum_congr rfl fun k _ => ?_
  have hk := contrEquiv1_symm_val d K rfl rfl k
  have el : d.lhsIdx j ((contrEquiv1 d K rfl rfl).symm k) = ix2 (j 0) k := funext fun a => Fin.ext (by
    match a with
    | ⟨0, _⟩ =>
      show (d.lhsIdx j _ 0).val = (j 0).val
      unfold DotDims.lhsIdx
      rw [dif_neg (show ¬(0 : Fin 2) ∈ d.lhsBatch by simp [hd]), dif_pos (show (0 : Fin 2) ∈ d.lhsNonContracting by simp [hd])]
      rfl
    | ⟨1, _⟩ => exact (d.lhsIdx_val_of_single (cl := 1) rfl j _).trans hk)
  have er : d.rhsIdx j ((contrEquiv1 d K rfl rfl).symm k) = ix2 k (j 1) := funext fun a => Fin.ext (by
    match a with
    | ⟨0, _⟩ => exact (d.rhsIdx_val_of_single (cr := 0) rfl j _).trans hk
    | ⟨1, _⟩ =>
      show (d.rhsIdx j _ 1).val = (j 1).val
      unfold DotDims.rhsIdx
      rw [dif_neg (show ¬(1 : Fin 2) ∈ d.rhsBatch by simp [hd]), dif_pos (show (1 : Fin 2) ∈ d.rhsNonContracting by simp [hd])]
      rfl)
  rw [el, er]
  rfl

/-- A column `[a, 1]` broadcast to `[a, b]` reads, at `(p, c)`, the column's entry `p`. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.MatmulRead

end
-- ==== Proof.LibMinRead.lean ====
/-
  Minimum reductions at the exact (extended-real) instance, read at an index by their lower bounds, and the index
  lemmas that go with them.  A minimum-reduction over one axis is a fold of `min` from the accumulator's value over that
  axis's coordinates; from the f32 pattern of +∞ (the top of the extended reals) the numbers below the fold are exactly
  the numbers below every folded entry, which is the form in which minima over differently cut index sets are compared.
  Also: the index a single-axis reduction of an `[m, n]` block reads (row or column put back), and a vector `[a]` cast
  to a column `[a, 1]`.  Generic in the extents.
-/
import Idealize.ShloMosaic.Lib.ValueIdx
import Idealize.ShloMosaic.Lib.Pipeline.Value
import Idealize.ShloMosaic.PureOps.Ideal.Laws

noncomputable section

namespace Idealize.ShloMosaic.MinRead

open Idealize.ShloMosaic Idealize.ShloMosaic.ValueIdx
open scoped BigOperators

/-- The f32 pattern of +∞ is the top of the extended reals. -/
theorem pinf_eq_top : Ideal.ofBits .f32 0x7F800000#32 = (⊤ : EReal) := by
  simp [Ideal.ofBits, Ideal.ieee]

/-- A minimum-reduction over ONE axis, at the exact instance: the fold of `min` from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Below a fold of `min` over every coordinate from +∞: below every entry. -/
theorem le_fold_min_top {ι : Type} [Fintype ι] (f : ι → EReal) (z : EReal) :
    z ≤ (Finset.univ : Finset ι).fold min (Ideal.ofBits .f32 0x7F800000#32) f ↔ ∀ i, z ≤ f i := by
  rw [Finset.le_fold_min, pinf_eq_top]
  exact ⟨fun h i => h.2 i (Finset.mem_univ i), fun h => ⟨le_top, fun i _ => h i⟩⟩

/-- A vector `[a]` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A reduced index `r` of an `[m, n]` block summed along its rows, with the column `k` put back, is `(r, k)`. -/
theorem lift1_ix2 {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- A reduced index `q` of an `[m, n]` block summed down its columns, with the row `k` put back, is `(k, q)`. -/
theorem lift0_ix2 {m n : Nat} (h : (⟨2, ![m, n]⟩ : Shape).Reduces [0] (⟨1, ![n]⟩ : Shape)) (q : Fin n)
    (k : Fin ((⟨2, ![m, n]⟩ : Shape).size 0)) : h.lift (ix1 q) k = ix2 (⟨k.val, k.isLt⟩ : Fin m) q := by
  funext c; apply Fin.ext
  fin_cases c <;> rfl

end Idealize.ShloMosaic.MinRead

end
-- ==== Proof.LibLogSoftmaxRows.lean ====
/-
  A log-softmax over the rows of an a×b block, as vector operations spell it, read at an entry, at the exact
  (extended-real) instance.

  The operations: the row maximum M (a maximum-reduction along the row from -∞, put back as a column and spread
  across the row), the shifted block v - M, its exponential, the row sum of that (a sum-reduction along the row, put
  back as a column), its logarithm spread across the row, and the difference.  At entry (p, c) this is
  (v (p, c) - M p) - log (∑ k, exp (v (p, k) - M p)) with M p the fold of max from -∞ over row p.  Generic in the
  extents.  The two definitions are plain functions of a row, for a host program's spelling of the same row function to
  be compared against.
-/
import proofs.«149127_j61684320305429_1_alg».proof.Proof.LibMatmul
import proofs.«149127_j61684320305429_1_alg».proof.Proof.LibMinRead

noncomputable section

namespace Idealize.ShloMosaic.LogSoftmaxRows

open Idealize.ShloMosaic Idealize.ShloMosaic.ValueIdx
open scoped BigOperators

/-- The maximum of a row: the fold of max from -∞ (the f32 pattern 0xFF800000) over the row's entries. -/
def rowMax {n : Nat} (v : Fin n → EReal) : EReal :=
  (Finset.univ : Finset (Fin n)).fold max (Ideal.ofBits .f32 0xFF800000#32) v

/-- The log-softmax of a row at one entry: the entry shifted by the row's maximum, minus the log of the sum of the
    exponentials of the shifted row. -/
def rowLogSoftmax {n : Nat} (v : Fin n → EReal) (c : Fin n) : EReal :=
  (v c - rowMax v) - Ideal.log (∑ k : Fin n, Ideal.exp (v k - rowMax v))

variable {a b : Nat}

/-- The row maximum, put back as a column and spread across the row, reads at (p, q) the fold of max from -∞ over
    row p. -/
theorem rowMax_spread_apply (v : FVec Ideal ⟨2, ![a, b]⟩ .f32)
    (hr : (⟨2, ![a, b]⟩ : Shape).Reduces [1] ⟨1, ![a]⟩)
    (hc : (⟨1, ![a]⟩ : Shape).ShapeCasts ⟨2, ![a, 1]⟩)
    (hb : (⟨2, ![a, 1]⟩ : Shape).Broadcasts ⟨2, ![a, b]⟩)
    (hφ : FKind.Formats .f32) (hacc : (0xFF800000#32 : BitVec FTy.f32.bits) = FKind.maximumf.neutral .f32 hφ)
    (p : Fin a) (q : Fin b) :
    broadcastTo ⟨2, ![a, b]⟩ (shapeCast ⟨2, ![a, 1]⟩ (multiReduction .maximumf [1] ⟨1, ![a]⟩ v 0xFF800000#32 hr hφ hacc) hc) hb (ix2 p q)
      = rowMax (fun k : Fin b => v (ix2 p k)) := by
  rw [MatmulRead.broadcastTo_a1_ab_apply, MinRead.shapeCast_a_a1_apply, Ideal.multiReduction_maximumf_single]
  show (Finset.univ : Finset (Fin b)).fold max (Ideal.ofBits .f32 0xFF800000#32) (fun k : Fin b => v (hr.lift (ix1 p) k)) = _
  unfold rowMax
  exact congrArg (fun f : Fin b → EReal => (Finset.univ : Finset (Fin b)).fold max (Ideal.ofBits .f32 0xFF800000#32) f)
    (funext fun k => congrArg v (MinRead.lift1_ix2 hr p k))

/-- The whole chain at an entry: the row log-softmax. -/
theorem logSoftmax_rows_apply (v : FVec Ideal ⟨2, ![a, b]⟩ .f32)
    (hr : (⟨2, ![a, b]⟩ : Shape).Reduces [1] ⟨1, ![a]⟩)
    (hc : (⟨1, ![a]⟩ : Shape).ShapeCasts ⟨2, ![a, 1]⟩)
    (hb : (⟨2, ![a, 1]⟩ : Shape).Broadcasts ⟨2, ![a, b]⟩)
    (hφ₁ : FKind.Formats .f32) (hacc₁ : (0xFF800000#32 : BitVec FTy.f32.bits) = FKind.maximumf.neutral .f32 hφ₁)
    (hφ₂ : FKind.Formats .f32) (hacc₂ : (0x00000000#32 : BitVec FTy.f32.bits) = FKind.add.neutral .f32 hφ₂)
    (p : Fin a) (c : Fin b) :
    subf
        (subf v (broadcastTo ⟨2, ![a, b]⟩ (shapeCast ⟨2, ![a, 1]⟩ (multiReduction .maximumf [1] ⟨1, ![a]⟩ v 0xFF800000#32 hr hφ₁ hacc₁) hc) hb))
        (broadcastTo ⟨2, ![a, b]⟩
          (log (shapeCast ⟨2, ![a, 1]⟩
            (multiReduction .add [1] ⟨1, ![a]⟩
              (exp (subf v (broadcastTo ⟨2, ![a, b]⟩ (shapeCast ⟨2, ![a, 1]⟩ (multiReduction .maximumf [1] ⟨1, ![a]⟩ v 0xFF800000#32 hr hφ₁ hacc₁) hc) hb)))
              0x00000000#32 hr hφ₂ hacc₂) hc)) hb)
        (ix2 p c)
      = rowLogSoftmax (fun k : Fin b => v (ix2 p k)) c := by
  have hM := rowMax_spread_apply v hr hc hb hφ₁ hacc₁ p
  have hS : broadcastTo ⟨2, ![a, b]⟩
          (log (shapeCast ⟨2, ![a, 1]⟩
            (multiReduction .add [1] ⟨1, ![a]⟩
              (exp (subf v (broadcastTo ⟨2, ![a, b]⟩ (shapeCast ⟨2, ![a, 1]⟩ (multiReduction .maximumf [1] ⟨1, ![a]⟩ v 0xFF800000#32 hr hφ₁ hacc₁) hc) hb)))
              0x00000000#32 hr hφ₂ hacc₂) hc)) hb (ix2 p c)
        = Ideal.log (∑ k : Fin b, Ideal.exp (v (ix2 p k) - rowMax (fun k : Fin b => v (ix2 p k)))) := by
    rw [MatmulRead.broadcastTo_a1_ab_apply]
    show Ideal.log (shapeCast ⟨2, ![a, 1]⟩ _ hc (ix2 p (0 : Fin 1))) = _
    rw [MinRead.shapeCast_a_a1_apply, Ideal.multiReduction_add_single]
    show Ideal.log (∑ k : Fin b, Ideal.exp (v (hr.lift (ix1 p) k) - _)) = _
    refine congrArg Ideal.log (Finset.sum_congr rfl fun k _ => ?_)
    rw [MinRead.lift1_ix2 hr p k]
    exact congrArg (fun z => Ideal.exp (v (ix2 p k) - z)) (hM k)
  show (v (ix2 p c) - _) - _ = _
  rw [hM c, hS]
  rfl

end Idealize.ShloMosaic.LogSoftmaxRows

end
-- ==== Proof.Spec.lean ====
/-
  The mathematics both programs compute, as plain functions on the extended reals.

  A node's output row is the log-softmax of its activated row: with v k = max (a k + b k) 0 over the sixteen
  classes, M = the maximum of v over the row (a fold of max starting from -∞), the entry at class c is
  (v c - M) - log (∑ k, exp (v k - M)).  The aggregated row a is whatever the gather / scale / scatter-add stage
  produced from the linear map h = x · W, h (r, c) = ∑ k, x (r, k) * W (k, c); that stage is the same sequence of
  host operations in both programs, so it stays an opaque function here.
-/
import proofs.«149127_j61684320305429_1_alg».proof.Proof.LibLogSoftmaxRows
import Idealize.ShloMosaic.Lib.ValueIdx
import Idealize.ShloMosaic.PureOps.Ideal
import Idealize.ShloMosaic.PureOps.Ideal.Laws

noncomputable section

namespace Cert.GcnSpec

open Idealize.ShloMosaic Idealize.ShloMosaic.ValueIdx
open scoped BigOperators

-- the row maximum (a fold of max from -∞) and the row log-softmax, as plain functions of a row
export Idealize.ShloMosaic.LogSoftmaxRows (rowMax rowLogSoftmax)

/-- Bias, then the rectifier: max (a + b) 0. -/
def act (a b : EReal) : EReal := max (a + b) (Ideal.ofBits .f32 0x00000000#32)

/-- The epilogue on whole arrays: entry (r, c) is the log-softmax, at class c, of the activated row r. -/
def epi (agg : (⟨2, ![100000, 16]⟩ : Shape).Idx → EReal) (b : (⟨1, ![16]⟩ : Shape).Idx → EReal) :
    (⟨2, ![100000, 16]⟩ : Shape).Idx → EReal := fun i =>
  rowLogSoftmax (fun k : Fin 16 => act (agg (ix2 (⟨(i 0).val, (i 0).isLt⟩ : Fin 100000) k)) (b (ix1 k)))
    (⟨(i 1).val, (i 1).isLt⟩ : Fin 16)

theorem epi_apply (agg : (⟨2, ![100000, 16]⟩ : Shape).Idx → EReal) (b : (⟨1, ![16]⟩ : Shape).Idx → EReal)
    (r : Fin 100000) (c : Fin 16) :
    epi agg b (ix2 r c) = rowLogSoftmax (fun k : Fin 16 => act (agg (ix2 r k)) (b (ix1 k))) c := rfl

/-- The linear map on whole arrays: entry (r, c) of x · W. -/
def lin (x : (⟨2, ![100000, 64]⟩ : Shape).Idx → EReal) (w : (⟨2, ![64, 16]⟩ : Shape).Idx → EReal) :
    (⟨2, ![100000, 16]⟩ : Shape).Idx → EReal := fun i =>
  ∑ k : Fin 64, x (ix2 (⟨(i 0).val, (i 0).isLt⟩ : Fin 100000) k) * w (ix2 k (⟨(i 1).val, (i 1).isLt⟩ : Fin 16))

theorem lin_apply (x : (⟨2, ![100000, 64]⟩ : Shape).Idx → EReal) (w : (⟨2, ![64, 16]⟩ : Shape).Idx → EReal)
    (r : Fin 100000) (c : Fin 16) : lin x w (ix2 r c) = ∑ k : Fin 64, x (ix2 r k) * w (ix2 k c) := rfl

/-- Taking the maximum with the fold's own starting value changes nothing: the start is below the fold. -/
theorem max_start_fold {ι : Type} (s : Finset ι) (a : EReal) (f : ι → EReal) :
    max a (s.fold max a f) = s.fold max a f :=
  max_eq_right ((Finset.le_fold_max a).mpr (Or.inl le_rfl))

/-- The f32 zero pattern is the number zero. -/
theorem zero_bits : Ideal.ofBits .f32 0x00000000#32 = (0 : EReal) := Ideal.ofBits_zero_f32

end Cert.GcnSpec

end
-- ==== Proof.RefEpi.lean ====
/-
  The reference program's epilogue, read as the specification's plain function on the extended reals.

  Epilogue: with a the aggregated array and b the bias, the activated array is v (r, k) = max (a (r, k) + b k) 0.
  The row maximum M r is the fold of max from -∞ over the sixteen entries of row r; taking max (-∞) (M r) once more
  changes nothing, since a fold of max is never below its starting value.  The shifted array is v (r, c) - M r, the row's
  sum of exponentials is 0 + ∑ k, exp (v (r, k) - M r) = ∑ k, exp (v (r, k) - M r), and the result at (r, c) is
  (v (r, c) - M r) - log (∑ k, exp (v (r, k) - M r)): the log-softmax of the activated row r at class c.
  Every broadcast in between only repeats a row's value along the class axis, so it reads the same row index back.
-/
import proofs.«149127_j61684320305429_1_alg».proof.Proof.RefReadP
import proofs.«149127_j61684320305429_1_alg».proof.Proof.Spec
import proofs.«149127_j61684320305429_1_alg».proof.Proof.LibMinRead

noncomputable section

namespace Cert.GcnRef

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.MinRead Cert.GcnSpec
open scoped BigOperators

/-- The activated array at (r, k): bias added to the aggregate, then the rectifier. -/
theorem act_read (x0 : (⟨S100000x64, .f32⟩ : BufTy).Contents (Elt Ideal)) (x1 : (⟨S2x3200000, .i32⟩ : BufTy).Contents (Elt Ideal)) (x2 : (⟨S3200000, .f32⟩ : BufTy).Contents (Elt Ideal)) (x3 : (⟨S64x16, .f32⟩ : BufTy).Contents (Elt Ideal)) (x4 : (⟨S16, .f32⟩ : BufTy).Contents (Elt Ideal))
    (r : Fin 100000) (k : Fin 16) :
    ReadP.val_main_v21 (F := Ideal) x0 x1 x2 x3 x4 (ix2 r k)
      = act (ReadP.val_main_v17 (F := Ideal) x0 x1 x2 x3 (ix2 r k)) (x4 (ix1 k)) := by
  rw [ReadP.val_main_v21_apply, ReadP.val_main_v20_apply, ReadP.val_main_v19_apply, ReadP.val_main_v18_apply,
    ReadP.val_main_call0_v0_apply, ReadP.val_main_call0_cst_apply]
  have e : ReadP.idx_main_v18 (ReadP.idx_main_v19 (ix2 r k)) = ix1 k :=
    funext fun a => Fin.ext (by match a with | ⟨0, _⟩ => rfl)
  rw [e]
  rfl

/-- Row r's index with column k put back is (r, k): the reduced array reads the row. -/
theorem lift_read (y : S100000x16.Idx → EReal) (h : S100000x16.Reduces [1] S100000) (r : Fin 100000) :
    y ∘ h.lift (ix1 r) = fun k : Fin 16 => y (ix2 r k) := by
  funext k
  exact congrArg y (lift1_ix2 h r k)

/-- At the extended reals the float maximum is max, so the two folds are the same fold. -/
theorem fold_maximumf_eq {ι : Type} (s : Finset ι) (a : EReal) (f : ι → EReal) :
    Finset.fold (FloatOps.maximumf (F := Ideal) (φ := .f32)) a f s = Finset.fold max a f s := rfl

/-- The row maximum the reference reduces to, at row r: the fold of max from -∞ over the activated row. -/
theorem rowmax_read (x0 : (⟨S100000x64, .f32⟩ : BufTy).Contents (Elt Ideal)) (x1 : (⟨S2x3200000, .i32⟩ : BufTy).Contents (Elt Ideal)) (x2 : (⟨S3200000, .f32⟩ : BufTy).Contents (Elt Ideal)) (x3 : (⟨S64x16, .f32⟩ : BufTy).Contents (Elt Ideal)) (x4 : (⟨S16, .f32⟩ : BufTy).Contents (Elt Ideal))
    (r : Fin 100000) :
    ReadP.val_main_call1_v0 (F := Ideal) x0 x1 x2 x3 x4 (ix1 r)
      = rowMax (fun k : Fin 16 => ReadP.val_main_v21 (F := Ideal) x0 x1 x2 x3 x4 (ix2 r k)) := by
  unfold ReadP.val_main_call1_v0
  generalize ReadP.val_main_v21 (F := Ideal) x0 x1 x2 x3 x4 = y
  rw [Host.reduce_eq_fold_single _ _ _ _ (by decide : S100000x16.Reduces [1] S100000), lift_read,
    ReadP.val_main_call1_cst_apply]
  rw [Ideal.ofBits_def]
  exact fold_maximumf_eq _ _ _

/-- The shifted array at (r, c): the activated entry minus its row's maximum. -/
theorem shift_read (x0 : (⟨S100000x64, .f32⟩ : BufTy).Contents (Elt Ideal)) (x1 : (⟨S2x3200000, .i32⟩ : BufTy).Contents (Elt Ideal)) (x2 : (⟨S3200000, .f32⟩ : BufTy).Contents (Elt Ideal)) (x3 : (⟨S64x16, .f32⟩ : BufTy).Contents (Elt Ideal)) (x4 : (⟨S16, .f32⟩ : BufTy).Contents (Elt Ideal))
    (r : Fin 100000) (c : Fin 16) :
    ReadP.val_main_call1_v5 (F := Ideal) x0 x1 x2 x3 x4 (ix2 r c)
      = ReadP.val_main_v21 (F := Ideal) x0 x1 x2 x3 x4 (ix2 r c) - rowMax (fun k : Fin 16 => ReadP.val_main_v21 (F := Ideal) x0 x1 x2 x3 x4 (ix2 r k)) := by
  rw [ReadP.val_main_call1_v5_apply, ReadP.val_main_call1_v4_apply, ReadP.val_main_call1_v3_apply,
    ReadP.val_main_call1_v2_apply, ReadP.val_main_call1_v1_apply, ReadP.val_main_call1_cst_0_apply]
  have e : ReadP.idx_main_call1_v3 (ReadP.idx_main_call1_v4 (ix2 r c)) = ix1 r :=
    funext fun a => Fin.ext (by match a with | ⟨0, _⟩ => rfl)
  rw [e, rowmax_read, Ideal.subf_def, Ideal.maximumf_def, Ideal.ofBits_def]
  unfold rowMax
  rw [max_start_fold]

/-- The row's sum of exponentials at row r. -/
theorem sum_read (x0 : (⟨S100000x64, .f32⟩ : BufTy).Contents (Elt Ideal)) (x1 : (⟨S2x3200000, .i32⟩ : BufTy).Contents (Elt Ideal)) (x2 : (⟨S3200000, .f32⟩ : BufTy).Contents (Elt Ideal)) (x3 : (⟨S64x16, .f32⟩ : BufTy).Contents (Elt Ideal)) (x4 : (⟨S16, .f32⟩ : BufTy).Contents (Elt Ideal))
    (r : Fin 100000) :
    ReadP.val_main_call1_v7 (F := Ideal) x0 x1 x2 x3 x4 (ix1 r)
      = ∑ k : Fin 16, Ideal.exp (ReadP.val_main_v21 (F := Ideal) x0 x1 x2 x3 x4 (ix2 r k) - rowMax (fun k' : Fin 16 => ReadP.val_main_v21 (F := Ideal) x0 x1 x2 x3 x4 (ix2 r k'))) := by
  rw [ReadP.val_main_call1_v7_apply, ReadP.val_main_call1_cst_1_apply, Ideal.ofBits_def, zero_bits, zero_add]
  refine Finset.sum_congr rfl fun k _ => ?_
  have e : ReadP.idx_main_call1_v7 (ix1 r) k = ix2 r k :=
    funext fun a => Fin.ext (by match a with | ⟨0, _⟩ => rfl | ⟨1, _⟩ => rfl)
  rw [e, ReadP.val_main_call1_v6_apply, Ideal.hostUnary_exp_def, shift_read]

/-- The reference's result is the epilogue of the specification applied to the aggregated array and the bias. -/
theorem ref_epi (x0 : (⟨S100000x64, .f32⟩ : BufTy).Contents (Elt Ideal)) (x1 : (⟨S2x3200000, .i32⟩ : BufTy).Contents (Elt Ideal)) (x2 : (⟨S3200000, .f32⟩ : BufTy).Contents (Elt Ideal)) (x3 : (⟨S64x16, .f32⟩ : BufTy).Contents (Elt Ideal)) (x4 : (⟨S16, .f32⟩ : BufTy).Contents (Elt Ideal)) :
    ReadP.val_main_v22 (F := Ideal) x0 x1 x2 x3 x4
      = Cert.GcnSpec.epi (ReadP.val_main_v17 (F := Ideal) x0 x1 x2 x3) x4 := by
  funext i
  obtain ⟨r, c, rfl⟩ : ∃ (r : Fin 100000) (c : Fin 16), i = ix2 r c := ⟨i 0, i 1, eq_ix2 i⟩
  rw [Cert.GcnSpec.epi_apply]
  have hV : (fun k : Fin 16 => act (ReadP.val_main_v17 (F := Ideal) x0 x1 x2 x3 (ix2 r k)) (x4 (ix1 k)))
      = fun k : Fin 16 => ReadP.val_main_v21 (F := Ideal) x0 x1 x2 x3 x4 (ix2 r k) :=
    funext fun k => (act_read x0 x1 x2 x3 x4 r k).symm
  rw [hV, ReadP.val_main_v22_apply, ReadP.val_main_call1_v10_apply, ReadP.val_main_call1_v9_apply,
    ReadP.val_main_call1_v8_apply]
  have e : ReadP.idx_main_call1_v8 (ReadP.idx_main_call1_v10 (ix2 r c)) = ix1 r :=
    funext fun a => Fin.ext (by match a with | ⟨0, _⟩ => rfl)
  rw [e, sum_read, shift_read, Ideal.subf_def, Ideal.hostUnary_log_def]
  rfl

end Cert.GcnRef

end
-- ==== Proof.RunNamed.lean ====
/-
  The idealized kernel's run with its result named.  Every weakly fair execution of the program terminates without
  a fault, the five argument arrays end as launched, and the result array ends holding what the last segment boundary
  holds for it: the second region's output window after all ten of its write-backs.  The program is three segments —
  the first region (the linear map), the stretch of host operations (gather, scale, scatter-add, the bias reshaped),
  the second region (the epilogue) — and the final state agrees with the last boundary's contents on every buffer
  that outlives the regions; the result buffer is one of them.
-/
import proofs.«149127_j61684320305429_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result at the last boundary's contents, the arguments unchanged. -/
theorem run_named : θ_run defs (onTc (τ := τ) (main (F := F))) ⟨m, fun _ => 0, ρ⟩ (fun r => ∀ c : Dev nD,
      r.2.mem ((c.tc : Thread nD τ).loc main_v19) = W3 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v19 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.RunNamed

end
-- ==== Proof.PayRead.lean ====
/-
  What the two kernel bodies compute, read at an entry of the stored block.

  The first body stores the product of its 10000×64 block of x by the whole 64×16 W, accumulated into zeros; the
  narrowing of both factors to bf16 is the identity on extended reals, so entry (p, c) is ∑ k, x (p, k) * W (k, c).
  The second body adds the bias row to its 10000×16 block, applies max (·, 0), and takes the log-softmax of each
  row: entry (p, c) is the row log-softmax, at c, of k ↦ max (a (p, k) + b (0, k)) 0.
-/
import proofs.«149127_j61684320305429_1_alg».proof.Proof.Gen.KernelIdeal.Skeleton
import proofs.«149127_j61684320305429_1_alg».proof.Proof.Spec
import Idealize.ShloMosaic.Lib.ValueLayout

noncomputable section

namespace Cert.GcnPay

open Idealize.ShloMosaic Idealize.ShloMosaic.ValueIdx Cert.KernelIdeal Cert.KernelIdeal.Gen Cert.GcnSpec
open scoped BigOperators

/-- The matmul body's stored block at (p, c): the contraction over the 64 input features. -/
theorem matmul_body_apply (x0 : Vec Ideal S10000x64 .f32) (x2 : Vec Ideal S64x16 .f32) (p : Fin 10000) (c : Fin 16) :
    k0_pay1 (F := Ideal) x0 x2 (ix2 p c) = ∑ k : Fin 64, x0 (ix2 p k) * x2 (ix2 k c) := by
  unfold k0_pay1
  exact MatmulRead.matmul_zero_apply [1] [0] [0] [1] [] [] rfl rfl rfl rfl rfl rfl
    dot_S10000x64_S64x16_S10000x16_1_0_0_1_n_n_wf none
    (truncf .bf16 x0 bitsLt_bf16_f32) (truncf .bf16 x2 bitsLt_bf16_f32) (ix2 p c)

/-- The epilogue body's stored block at (p, c): the row log-softmax of the biased, rectified row p. -/
theorem epilogue_body_apply (x0 : Vec Ideal S10000x16 .f32) (x2 : Vec Ideal S1x16 .f32) (p : Fin 10000) (c : Fin 16) :
    k1_pay1 (F := Ideal) x0 x2 (ix2 p c)
      = rowLogSoftmax (fun k : Fin 16 => act (x0 (ix2 p k)) (x2 (ix2 (0 : Fin 1) k))) c := by
  unfold k1_pay1
  refine (LogSoftmaxRows.logSoftmax_rows_apply (a := 10000) (b := 16)
    (maximumf (addf (shapeCast S10000x16 x0 shapeCasts_S10000x16_S10000x16)
        (broadcastTo S10000x16 (shapeCast S1x16 x2 shapeCasts_S1x16_S1x16) broadcasts_S1x16_S10000x16))
      (broadcast S10000x16 (Scalar.ofBits .f32 0x00000000#32)))
    reduces_S10000x16_S10000 shapeCasts_S10000_S10000x1 broadcasts_S10000x1_S10000x16 (.inl rfl) rfl (.inl rfl) rfl p c).trans ?_
  refine congrArg (fun f : Fin 16 → EReal => rowLogSoftmax f c) (funext fun k => ?_)
  show max (shapeCast S10000x16 x0 shapeCasts_S10000x16_S10000x16 (ix2 p k)
      + broadcastTo S10000x16 (shapeCast S1x16 x2 shapeCasts_S1x16_S1x16) broadcasts_S1x16_S10000x16 (ix2 p k))
      (Ideal.ofBits .f32 0x00000000#32) = act (x0 (ix2 p k)) (x2 (ix2 (0 : Fin 1) k))
  rw [shapeCast_self, shapeCast_self, broadcastTo_1b_ab_apply]
  rfl

end Cert.GcnPay

end
-- ==== Proof.Region0.lean ====
/-
  The first region's output array.  The grid has ten points; point t reads rows 10000·t … 10000·t + 9999 of x and
  the whole of W, and writes back rows 10000·t … 10000·t + 9999 of the output.  What it writes is the product of
  its block of x by W, so every entry (r, c) of the output array ends at ∑ k, x (r, k) * W (k, c): the blocks are
  the restrictions of one whole-array function, and the ten row ranges cover the 100000 rows.
-/
import proofs.«149127_j61684320305429_1_alg».proof.Proof.Gen.KernelIdeal.Frame
import proofs.«149127_j61684320305429_1_alg».proof.Proof.PayRead
import Idealize.ShloMosaic.Lib.Pipeline.Value

set_option maxRecDepth 16384

noncomputable section

namespace Cert.GcnRegion0

open Idealize.ShloMosaic Idealize.ShloMosaic.ValueIdx Idealize.ShloMosaic.TcCoe Idealize.SL.Sem
open Cert.KernelIdeal Cert.KernelIdeal.Gen Cert.GcnSpec
open Idealize.ShloMosaic.Pipeline (Dat Cfg Window)
open scoped BigOperators

variable (V : (c : Dev nD) → (b : Ref sig .tc) → Buf (Elt Ideal) ((c : Thread nD τ).loc b))

theorem origin_zero : (![0, 0] : Fin 2 → Nat) = fun _ => 0 := funext fun a => by fin_cases a <;> rfl

/-- The three windows' block indices at a grid point: the x window and the output window move together along the
    rows, W's window stays at the origin, and no window moves along the columns. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem block_onto : ∀ q0 : Fin 10, ∃ t : Fin cfg0.N, win0_2.index t = ![q0.val, 0] :=
  (by decide +kernel : ∀ q0 : Fin 10, ∃ t : Fin grid0.N, win0_2.index t = ![q0.val, 0])

/-- What point t writes back is block t of the whole-array product. -/
theorem written_eq (c : Dev nD) (t : Fin cfg0.N) :
    (dat0 (F := Ideal) V c).flushed 2 t
      = ((cfg0.win 2).blk t).view.read (Elt Ideal) (lin (V c main_arg0) (V c main_arg3)) := by
  show (cfg0.win 2).cut (grid0.coords t) ((dat0 (F := Ideal) V c).after 2 t) = _
  rw [after0_2]
  unfold out0_2
  rw [View.canon_unit_zero origin_zero]
  simp only [View.ld_unit_zero (S := S10000x64) origin_zero, View.ld_unit_zero (S := S64x16) origin_zero]
  obtain ⟨e0, e1, e2, e3, e4, e5⟩ := block_indices t
  funext j
  obtain ⟨p, q, rfl⟩ : ∃ (p : Fin 10000) (q : Fin 16), j = ix2 p q := ⟨j 0, j 1, eq_ix2 j⟩
  refine (Cert.GcnPay.matmul_body_apply (iblk0 V c 0 t) (iblk0 V c 1 t) p q).trans ?_
  show _ = lin (V c main_arg0) (V c main_arg3) (((cfg0.win 2).blk t).view.emb (ix2 p q))
  unfold lin
  refine Finset.sum_congr rfl fun k _ => ?_
  have h0 : ((cfg0.win 0).blk t).view.emb (ix2 p k)
      = ix2 (⟨((((cfg0.win 2).blk t).view.emb (ix2 p q)) 0).val, ((((cfg0.win 2).blk t).view.emb (ix2 p q)) 0).isLt⟩ : Fin 100000) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * k.val = k.val; omega
  have h1 : ((cfg0.win 1).blk t).view.emb (ix2 k q)
      = ix2 k (⟨((((cfg0.win 2).blk t).view.emb (ix2 p q)) 1).val, ((((cfg0.win 2).blk t).view.emb (ix2 p q)) 1).isLt⟩ : Fin 16) := by
    funext a; apply Fin.ext
    match a with
    | ⟨0, _⟩ => show win0_1.index t (0 : Fin 2) * 64 + 1 * k.val = k.val; omega
    | ⟨1, _⟩ => show win0_1.index t (1 : Fin 2) * 16 + 1 * q.val = win0_2.index t (1 : Fin 2) * 16 + 1 * q.val; omega
  exact congrArg₂ (fun u w : EReal => u * w)
    (congrArg (V c main_arg0 : S100000x64.Idx → EReal) h0) (congrArg (V c main_arg3 : S64x16.Idx → EReal) h1)

/-- An index of the output array is in point t's block iff each coordinate is in the block's range on its axis. -/
theorem mem_block (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v0).slice (win0_2.rect t)).set ↔ _
  rw [View.set_slice_whole, Rect.mem_set_unit]
  exact Iff.rfl

/-- The ten row blocks cover the array: row r lies in the block of point r / 10000. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- The output array after the region: the whole-array product of the entry contents of x and W. -/
theorem array_eq (c : Dev nD) :
    (dat0 (F := Ideal) V c).arrAt 2 cfg0.N = lin (V c main_arg0) (V c main_arg3) :=
  (dat0 (F := Ideal) V c).arrAt_eq_of_cover 2 (lin (V c main_arg0) (V c main_arg3)) (fun t _ => written_eq V c t) covered

end Cert.GcnRegion0

end
-- ==== Proof.Region1.lean ====
/-
  The second region's output array.  Ten grid points again; point t reads rows 10000·t … 10000·t + 9999 of the
  aggregated array and the one bias row, and writes back the same row range of the output.  What it writes is, row by
  row, the log-softmax of the biased and rectified row, so every entry (r, c) of the output array ends at the
  specification's epilogue of the aggregated array and the bias row: the blocks are restrictions of one whole-array
  function, and the ten row ranges cover the 100000 rows.
-/
import proofs.«149127_j61684320305429_1_alg».proof.Proof.Gen.KernelIdeal.Frame
import proofs.«149127_j61684320305429_1_alg».proof.Proof.PayRead
import Idealize.ShloMosaic.Lib.Pipeline.Value

set_option maxRecDepth 16384

noncomputable section

namespace Cert.GcnRegion1

open Idealize.ShloMosaic Idealize.ShloMosaic.ValueIdx Idealize.ShloMosaic.TcCoe Idealize.SL.Sem
open Cert.KernelIdeal Cert.KernelIdeal.Gen Cert.GcnSpec
open Idealize.ShloMosaic.Pipeline (Dat Cfg Window)
open scoped BigOperators

variable (V : (c : Dev nD) → (b : Ref sig .tc) → Buf (Elt Ideal) ((c : Thread nD τ).loc b))

theorem origin_zero : (![0, 0] : Fin 2 → Nat) = fun _ => 0 := funext fun a => by fin_cases a <;> rfl

/-- The bias as a vector of sixteen entries, read off its one-row array. -/
def biasOf (b2 : S1x16.Idx → EReal) : (⟨1, ![16]⟩ : Shape).Idx → EReal :=
  fun i => b2 (ix2 (0 : Fin 1) (⟨(i 0).val, (i 0).isLt⟩ : Fin 16))

/-- The three windows' block indices at a grid point: the aggregate's window and the output window move together
    along the rows, the bias window stays at the origin, and no window moves along the columns. -/
theorem block_indices : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks is some point's. -/
theorem block_onto : ∀ q0 : Fin 10, ∃ t : Fin cfg1.N, win1_2.index t = ![q0.val, 0] :=
  (by decide +kernel : ∀ q0 : Fin 10, ∃ t : Fin grid1.N, win1_2.index t = ![q0.val, 0])

/-- What point t writes back is block t of the whole-array epilogue. -/
theorem written_eq (c : Dev nD) (t : Fin cfg1.N) :
    (dat1 (F := Ideal) V c).flushed 2 t
      = ((cfg1.win 2).blk t).view.read (Elt Ideal) (epi (V c main_v17) (biasOf (V c main_v18))) := by
  show (cfg1.win 2).cut (grid1.coords t) ((dat1 (F := Ideal) V c).after 2 t) = _
  rw [after1_2]
  unfold out1_2
  rw [View.canon_unit_zero origin_zero]
  simp only [View.ld_unit_zero (S := S10000x16) origin_zero, View.ld_unit_zero (S := S1x16) origin_zero]
  obtain ⟨e0, e1, e2, e3, e4, e5⟩ := block_indices t
  funext j
  obtain ⟨p, q, rfl⟩ : ∃ (p : Fin 10000) (q : Fin 16), j = ix2 p q := ⟨j 0, j 1, eq_ix2 j⟩
  refine (Cert.GcnPay.epilogue_body_apply (iblk1 V c 0 t) (iblk1 V c 1 t) p q).trans ?_
  show rowLogSoftmax (fun k : Fin 16 => act ((V c main_v17 : S100000x16.Idx → EReal) (((cfg1.win 0).blk t).view.emb (ix2 p k)))
        ((V c main_v18 : S1x16.Idx → EReal) (((cfg1.win 1).blk t).view.emb (ix2 (0 : Fin 1) k)))) q
    = epi (V c main_v17) (biasOf (V c main_v18)) (((cfg1.win 2).blk t).view.emb (ix2 p q))
  unfold epi biasOf
  have hq : (⟨((((cfg1.win 2).blk t).view.emb (ix2 p q)) 1).val, ((((cfg1.win 2).blk t).view.emb (ix2 p q)) 1).isLt⟩ : Fin 16) = q := by
    apply Fin.ext
    show win1_2.index t (1 : Fin 2) * 16 + 1 * q.val = q.val
    omega
  rw [hq]
  refine congrArg (fun f : Fin 16 → EReal => rowLogSoftmax f q) (funext fun k => ?_)
  have h0 : ((cfg1.win 0).blk t).view.emb (ix2 p k)
      = ix2 (⟨((((cfg1.win 2).blk t).view.emb (ix2 p q)) 0).val, ((((cfg1.win 2).blk t).view.emb (ix2 p q)) 0).isLt⟩ : Fin 100000) k := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 16 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 16 + 1 * k.val = k.val; omega
  rw [h0, h1]

/-- An index of the output array is in point t's block iff each coordinate is in the block's range on its axis. -/
theorem mem_block (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v19).slice (win1_2.rect t)).set ↔ _
  rw [View.set_slice_whole, Rect.mem_set_unit]
  exact Iff.rfl

/-- The ten row blocks cover the array: row r lies in the block of point r / 10000. -/
theorem covered (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := block_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- The output array after the region: the whole-array epilogue of the entry contents of the aggregated array and
    the bias row. -/
theorem array_eq (c : Dev nD) :
    (dat1 (F := Ideal) V c).arrAt 2 cfg1.N = epi (V c main_v17) (biasOf (V c main_v18)) :=
  (dat1 (F := Ideal) V c).arrAt_eq_of_cover 2 (epi (V c main_v17) (biasOf (V c main_v18))) (fun t _ => written_eq V c t) covered

end Cert.GcnRegion1

end
-- ==== Proof.Middle.lean ====
/-
  The stretch of host operations between the two regions.  From the first region's output h and the arguments it
  computes the source and destination node of every edge (the two rows of the edge array, a negative index wrapped
  by the node count), gathers the rows h[src], scales each by its edge weight, and scatter-adds them into a zero
  array at the rows dst: the aggregated array.  The reference runs the very same operations on its own product h.
  So once h is the reference's product, the aggregated array is the reference's scatter stage, operation for
  operation.  The stretch also recasts the bias vector as a one-row array.
-/
import proofs.«149127_j61684320305429_1_alg».proof.Proof.Gen.KernelIdeal.Frame
import proofs.«149127_j61684320305429_1_alg».proof.Proof.RefReadP
import Idealize.ShloMosaic.Lib.StableHlo.Run

set_option maxRecDepth 16384

noncomputable section

namespace Cert.GcnMiddle

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The aggregated array the stretch leaves is the reference's scatter stage of the same arguments, as soon as the
    first region's output is the reference's product. -/
theorem aggregate_eq (c : Dev nD)
    (x0 : (⟨Cert.ReferenceIdeal.S100000x64, .f32⟩ : BufTy).Contents (Elt Ideal))
    (x3 : (⟨Cert.ReferenceIdeal.S64x16, .f32⟩ : BufTy).Contents (Elt Ideal))
    (h : (W1 m ρ c (Proc.devRef .tc main_v0) : S100000x16.Idx → EReal) = Cert.ReferenceIdeal.ReadP.val_main_v0 (F := Ideal) x0 x3) :
    (V2 m ρ c main_v17 : S100000x16.Idx → EReal)
      = Cert.ReferenceIdeal.ReadP.val_main_v17 (F := Ideal) x0 (W1 m ρ c (Proc.devRef .tc main_arg1)) (W1 m ρ c (Proc.devRef .tc main_arg2)) x3 := by
  show StableHlo.after hostOps1 (W1 m ρ c) (Proc.devRef .tc main_v17) = _
  after_results_simp
  rw [h]
  rfl

/-- The bias row the stretch leaves is the bias vector recast as a one-row array. -/
theorem bias_eq (c : Dev nD) :
    (V2 m ρ c main_v18 : S1x16.Idx → EReal)
      = shapeCast S1x16 (W1 m ρ c (Proc.devRef .tc main_arg4) : S16.Idx → EReal) shapeCasts_S16_S1x16 := by
  show StableHlo.after hostOps1 (W1 m ρ c) (Proc.devRef .tc main_v18) = _
  after_results_simp
  rfl

end Cert.GcnMiddle

end
-- ==== Proof.RefLin.lean ====
/-
  The reference's first stage is the linear map of the specification: entry (r, c) of its general dot product of
  x by W, contracting x's second axis with W's first, is ∑ k, x (r, k) * W (k, c).
-/
import proofs.«149127_j61684320305429_1_alg».proof.Proof.RefReadP
import proofs.«149127_j61684320305429_1_alg».proof.Proof.Spec

noncomputable section

namespace Cert.GcnRefLin

open Idealize.ShloMosaic Idealize.ShloMosaic.ValueIdx Cert.ReferenceIdeal Cert.GcnSpec
open scoped BigOperators

theorem ref_lin (x0 : (⟨S100000x64, .f32⟩ : BufTy).Contents (Elt Ideal)) (x3 : (⟨S64x16, .f32⟩ : BufTy).Contents (Elt Ideal)) :
    ReadP.val_main_v0 (F := Ideal) x0 x3 = lin x0 x3 := by
  funext i
  obtain ⟨r, c, rfl⟩ : ∃ (r : Fin 100000) (c : Fin 16), i = ix2 r c := ⟨i 0, i 1, eq_ix2 i⟩
  rw [ReadP.val_main_v0_apply, lin_apply]
  refine Finset.sum_congr rfl fun k _ => ?_
  have hl : ReadP.lidx_main_v0 (ix2 r c) k = ix2 r k :=
    funext fun a => Fin.ext (by match a with | ⟨0, _⟩ => rfl | ⟨1, _⟩ => rfl)
  have hr : ReadP.ridx_main_v0 (ix2 r c) k = ix2 k c :=
    funext fun a => Fin.ext (by match a with | ⟨0, _⟩ => rfl | ⟨1, _⟩ => rfl)
  rw [hl, hr]

end Cert.GcnRefLin

end
-- ==== Proof.KernelValue.lean ====
/-
  The idealized kernel's result as a function of its arguments.  The result buffer ends at the second region's
  output array; that array is the specification's epilogue of the array and the bias row the region was entered
  with; the stretch of host operations before it made those the reference's scatter stage (of the first region's
  output, which is the product x · W, the reference's own first stage) and the bias recast as a row; and the
  arguments are still the launch contents at every boundary.  So the result is the epilogue of the reference's
  scatter stage of the launch arguments and of the bias.
-/
import proofs.«149127_j61684320305429_1_alg».proof.Proof.RunNamed
import proofs.«149127_j61684320305429_1_alg».proof.Proof.Region0
import proofs.«149127_j61684320305429_1_alg».proof.Proof.Region1
import proofs.«149127_j61684320305429_1_alg».proof.Proof.Middle
import proofs.«149127_j61684320305429_1_alg».proof.Proof.RefLin
import Idealize.ShloMosaic.Lib.ValueLayout

set_option maxRecDepth 16384

noncomputable section

namespace Cert.GcnKernelValue

open Idealize.ShloMosaic Idealize.ShloMosaic.ValueIdx Idealize.ShloMosaic.TcCoe Idealize.SL.Sem
open Cert.KernelIdeal Cert.KernelIdeal.Gen Cert.GcnSpec

variable (m : (ℓ : Loc nD τ sig) → Buf (Elt Ideal) ℓ) (ρ : Dev nD → PrngReg)

/-- The first region leaves the reference's product in its output buffer. -/
theorem product_eq (c : Dev nD) :
    (W1 m ρ c (Proc.devRef .tc main_v0) : S100000x16.Idx → EReal)
      = Cert.ReferenceIdeal.ReadP.val_main_v0 (F := Ideal) (m ((c : Thread nD τ).loc main_arg0)) (m ((c : Thread nD τ).loc main_arg3)) :=
  ((W1_arr m ρ c 2).trans (Cert.GcnRegion0.array_eq (V0 m ρ) c)).trans
    (Cert.GcnRefLin.ref_lin (m ((c : Thread nD τ).loc main_arg0)) (m ((c : Thread nD τ).loc main_arg3))).symm

/-- The bias vector recast as a one-row array and read back as a vector is the bias vector. -/
theorem bias_back (b : S16.Idx → EReal) :
    Cert.GcnRegion1.biasOf (shapeCast S1x16 b shapeCasts_S16_S1x16) = b := by
  funext i
  obtain ⟨k, rfl⟩ : ∃ k : Fin 16, i = ix1 k := ⟨i 0, eq_ix1 i⟩
  exact shapeCast_a_1a_apply b shapeCasts_S16_S1x16 (0 : Fin 1) k

/-- The result buffer's final contents: the epilogue of the reference's scatter stage of the launch arguments. -/
theorem result_eq (c : Dev nD) :
    (W3 m ρ c (Proc.devRef .tc main_v19) : S100000x16.Idx → EReal)
      = epi (Cert.ReferenceIdeal.ReadP.val_main_v17 (F := Ideal) (m ((c : Thread nD τ).loc main_arg0)) (m ((c : Thread nD τ).loc main_arg1))
            (m ((c : Thread nD τ).loc main_arg2)) (m ((c : Thread nD τ).loc main_arg3)))
          (m ((c : Thread nD τ).loc main_arg4)) := by
  refine ((W3_arr m ρ c 2).trans (Cert.GcnRegion1.array_eq (V2 m ρ) c)).trans ?_
  rw [Cert.GcnMiddle.aggregate_eq m ρ c _ _ (product_eq m ρ c), Cert.GcnMiddle.bias_eq m ρ c, bias_back]
  rw [W1_of_ne m ρ c main_arg1 (by decide), W1_of_ne m ρ c main_arg2 (by decide), W1_of_ne m ρ c main_arg4 (by decide)]

/-- The run of the idealized kernel with its result as that function of the arguments. -/
theorem run : θ_run defs (onTc (τ := τ) (main (F := Ideal))) ⟨m, fun _ => 0, ρ⟩ (fun r => ∀ c : Dev nD,
      r.2.mem ((c.tc : Thread nD τ).loc main_v19)
        = epi (Cert.ReferenceIdeal.ReadP.val_main_v17 (F := Ideal) (m ((c : Thread nD τ).loc main_arg0)) (m ((c : Thread nD τ).loc main_arg1))
              (m ((c : Thread nD τ).loc main_arg2)) (m ((c : Thread nD τ).loc main_arg3)))
            (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩)
    (Cert.KernelIdeal.RunNamed.run_named (F := Ideal) m ρ)

end Cert.GcnKernelValue

end
-- ==== Proof.lean ====
/-
  One graph-convolution layer: h = x · W, a weighted neighbour sum agg[d] = ∑ over edges (s → d) of w · h[s], then
  log-softmax over the sixteen classes of max (agg + b, 0).  The kernel computes h in one pipelined region (a bf16
  matrix product accumulated in f32, ten row blocks), runs the gather / scale / scatter-add as host operations, and
  the bias, rectifier and log-softmax in a second pipelined region (ten row blocks); the reference is the same
  computation in plain array operations.

  Over the extended reals the two agree entry by entry.  The narrowing to bf16 is the identity and a matrix product
  into zeros is the contraction sum, so the first region's output array is the reference's product.  The host
  operations between the regions are, operation for operation, the reference's, so the aggregated array is the
  reference's scatter stage.  The second region's body is, row by row, (v - M) - log ∑ exp (v - M) with
  v = max (agg + b, 0) and M the row's maximum taken from -∞; the reference spells the same row function, with one
  more max against -∞ around M and a 0 added to the sum, neither of which changes the value.  No law used needs the
  inputs finite; the precondition is only carried.

  The three frame claims are the generated frame certificates (the reference's is its run with the result dropped);
  the idealization ledger is empty.
-/
import proofs.«149127_j61684320305429_1_alg».proof.Defs
import proofs.«149127_j61684320305429_1_alg».proof.Proof.Gen.Kernel
import proofs.«149127_j61684320305429_1_alg».proof.Proof.Gen.Kernel.Skeleton
import proofs.«149127_j61684320305429_1_alg».proof.Proof.Gen.Kernel.Launch
import proofs.«149127_j61684320305429_1_alg».proof.Proof.Gen.Kernel.Points
import proofs.«149127_j61684320305429_1_alg».proof.Proof.Gen.Kernel.Frame
import proofs.«149127_j61684320305429_1_alg».proof.Proof.Gen.KernelIdeal
import proofs.«149127_j61684320305429_1_alg».proof.Proof.Gen.KernelIdeal.Skeleton
import proofs.«149127_j61684320305429_1_alg».proof.Proof.Gen.KernelIdeal.Launch
import proofs.«149127_j61684320305429_1_alg».proof.Proof.Gen.KernelIdeal.Points
import proofs.«149127_j61684320305429_1_alg».proof.Proof.Gen.KernelIdeal.Frame
import proofs.«149127_j61684320305429_1_alg».proof.Proof.Gen.ReferenceIdeal
import proofs.«149127_j61684320305429_1_alg».proof.Proof.Gen.Pre_finite_inputs
import proofs.«149127_j61684320305429_1_alg».proof.Proof.RefRunP
import proofs.«149127_j61684320305429_1_alg».proof.Proof.RefReadP
import proofs.«149127_j61684320305429_1_alg».proof.Proof.RefEpi
import proofs.«149127_j61684320305429_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both runs end with the result at the epilogue of the reference's scatter stage of the (agreeing) arguments. -/
theorem algebraic : Cert.algebraic_KernelIdeal_ReferenceIdeal := by
  intro m ρ m' ρ' _ hagree
  refine ⟨_, Cert.GcnKernelValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v22_eq, Cert.GcnRef.ref_epi,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
